-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S1024x1024 : Shape := ⟨2, ![1024, 1024]⟩
abbrev S128x256 : Shape := ⟨2, ![128, 256]⟩
abbrev S128x128 : Shape := ⟨2, ![128, 128]⟩
abbrev S128x64 : Shape := ⟨2, ![128, 64]⟩
abbrev S128x1x64 : Shape := ⟨3, ![128, 1, 64]⟩
abbrev S1x128x64 : Shape := ⟨3, ![1, 128, 64]⟩
abbrev S128x128x64 : Shape := ⟨3, ![128, 128, 64]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x256_S128x256_0_0 : ∀ a, (![0, 0] : Fin 2 → Nat) a + S128x256.size a ≤ S128x256.size a
  h_S128x256 : 0 < S128x256.numel
  slices_S128x256_o0_0_S128x64 : S128x256.Slices ![0, 0] S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  reduces_S128x128x64_S128x128 : S128x128x64.Reduces [2] S128x128
  slices_S128x256_o0_64_S128x64 : S128x256.Slices ![0, 64] S128x64
  slices_S128x256_o0_128_S128x64 : S128x256.Slices ![0, 128] S128x64
  slices_S128x256_o0_192_S128x64 : S128x256.Slices ![0, 192] S128x64
  inb_S128x128_S128x128_0_0 : ∀ a, (![0, 0] : Fin 2 → Nat) a + S128x128.size a ≤ S128x128.size a
  h_S128x128 : 0 < S128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .f32 = 32 ∨ (Rect.block (s := S1024x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x1x256, .f32⟩
  | .hbm, ⟨5, _⟩ => ⟨S1x1024x256, .f32⟩
  | .hbm, ⟨6, _⟩ => ⟨S1024x1024x256, .f32⟩
  | .hbm, ⟨7, _⟩ => ⟨S1024x1024x256, .f32⟩
  | .hbm, ⟨8, _⟩ => ⟨S1024x1024x256, .f32⟩
  | .hbm, ⟨9, _⟩ => ⟨S_, .f32⟩
  | .hbm, ⟨10, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel

variable [Facts₀]

class Facts : Prop extends Facts₀ where

variable [Facts]
-- ==== Proof.LibMaxTiles.lean ====
/-
  Folds of `max` regrouped into tiles, over any linear order.

  A running maximum taken from a starting value `b` over `K * T` indices is the running maximum, from the same
  `b`, of the `K` tile maxima, each itself taken from `b` over the tile's `T` indices: `max` is associative,
  commutative and idempotent, so the starting value may be repeated at every level without changing the result, and
  nothing is asked of `b` (it need not be the least element). `fold_max_fin4` writes the fold over four indices as
  the left-nested `max` a straight-line program computes, and `fold_max_tiles4` joins the two: a fold over
  `4 * T` indices is `max (max (max (max b M₀) M₁) M₂) M₃` with `Mₖ` the fold over tile `k`.
-/
import Mathlib.Data.Finset.Fold
import Mathlib.Data.Fintype.Basic
import Mathlib.Order.Fin.Basic

namespace MaxTiles

variable {α : Type*} [LinearOrder α]

/-- A fold of `max` is at least its starting value. -/
theorem start_le_fold {ι : Type*} (s : Finset ι) (b : α) (f : ι → α) : b ≤ s.fold max b f :=
  (Finset.le_fold_max _).2 (Or.inl le_rfl)

/-- A fold of `max` is at least each of its terms. -/
theorem term_le_fold {ι : Type*} (s : Finset ι) (b : α) (f : ι → α) {i : ι} (hi : i ∈ s) : f i ≤ s.fold max b f :=
  (Finset.le_fold_max _).2 (Or.inr ⟨i, hi, le_rfl⟩)

/-- Index `r` of tile `c` is an index of the whole: `c * T + r < K * T`. -/
theorem tile_lt {K T : ℕ} (c : Fin K) (r : Fin T) : c.val * T + r.val < K * T :=
  calc c.val * T + r.val < c.val * T + T := Nat.add_lt_add_left r.isLt _
    _ = (c.val + 1) * T := (Nat.succ_mul _ _).symm
    _ ≤ K * T := Nat.mul_le_mul_right T c.isLt

/-- The maximum over `K * T` indices from `b` is the maximum, from `b`, of the `K` tile maxima from `b`. -/
theorem fold_max_tiles (K T : ℕ) (b : α) (f : Fin (K * T) → α) :
    Finset.univ.fold max b f
      = Finset.univ.fold max b fun c : Fin K =>
          Finset.univ.fold max b fun r : Fin T => f ⟨c.val * T + r.val, tile_lt c r⟩ := by
  apply le_antisymm
  · -- every term of the whole is a term of its tile's maximum
    refine (Finset.fold_max_le _).2 ⟨start_le_fold _ _ _, fun k _ => ?_⟩
    have h0 : 0 < K * T := Nat.lt_of_le_of_lt (Nat.zero_le _) k.isLt
    have hT : 0 < T := Nat.pos_of_ne_zero fun h => by
      rw [h, Nat.mul_zero] at h0; exact Nat.lt_irrefl _ h0
    have hc : k.val / T < K := Nat.div_lt_of_lt_mul (lt_of_lt_of_eq k.isLt (Nat.mul_comm K T))
    have hr : k.val % T < T := Nat.mod_lt _ hT
    have hk : k = ⟨(⟨k.val / T, hc⟩ : Fin K).val * T + (⟨k.val % T, hr⟩ : Fin T).val, tile_lt _ _⟩ :=
      Fin.ext (Nat.div_add_mod' k.val T).symm
    calc f k = f ⟨(⟨k.val / T, hc⟩ : Fin K).val * T + (⟨k.val % T, hr⟩ : Fin T).val, tile_lt _ _⟩ := congrArg f hk
      _ ≤ Finset.univ.fold max b fun r : Fin T => f ⟨(⟨k.val / T, hc⟩ : Fin K).val * T + r.val, tile_lt _ r⟩ :=
          term_le_fold _ b (fun r : Fin T => f ⟨(⟨k.val / T, hc⟩ : Fin K).val * T + r.val, tile_lt _ r⟩)
            (Finset.mem_univ (⟨k.val % T, hr⟩ : Fin T))
      _ ≤ _ := term_le_fold _ b
            (fun c : Fin K => Finset.univ.fold max b fun r : Fin T => f ⟨c.val * T + r.val, tile_lt c r⟩)
            (Finset.mem_univ (⟨k.val / T, hc⟩ : Fin K))
  · -- every tile maximum is below the maximum of the whole
    refine (Finset.fold_max_le _).2 ⟨start_le_fold _ _ _, fun c _ => ?_⟩
    exact (Finset.fold_max_le _).2 ⟨start_le_fold _ _ _, fun r _ =>
      term_le_fold _ b f (Finset.mem_univ (⟨c.val * T + r.val, tile_lt c r⟩ : Fin (K * T)))⟩

/-- The maximum over four indices from `b`, written as the left-nested `max`. -/
theorem fold_max_fin4 (b : α) (g : Fin 4 → α) :
    Finset.univ.fold max b g = max (max (max (max b (g 0)) (g 1)) (g 2)) (g 3) := by
  apply le_antisymm
  · refine (Finset.fold_max_le _).2 ⟨?_, fun c _ => ?_⟩
    · exact le_max_of_le_left (le_max_of_le_left (le_max_of_le_left (le_max_left _ _)))
    · match c with
      | ⟨0, _⟩ => exact le_max_of_le_left (le_max_of_le_left (le_max_of_le_left (le_max_right _ _)))
      | ⟨1, _⟩ => exact le_max_of_le_left (le_max_of_le_left (le_max_right _ _))
      | ⟨2, _⟩ => exact le_max_of_le_left (le_max_right _ _)
      | ⟨3, _⟩ => exact le_max_right _ _
  · exact max_le (max_le (max_le (max_le (start_le_fold _ _ _)
      (term_le_fold _ b g (Finset.mem_univ 0))) (term_le_fold _ b g (Finset.mem_univ 1)))
      (term_le_fold _ b g (Finset.mem_univ 2))) (term_le_fold _ b g (Finset.mem_univ 3))

/-- The maximum over `4 * T` indices from `b` is the left-nested `max` of `b` and the four tile maxima from `b`. -/
theorem fold_max_tiles4 (T : ℕ) (b : α) (f : Fin (4 * T) → α) :
    Finset.univ.fold max b f
      = max (max (max (max b
          (Finset.univ.fold max b fun r : Fin T => f ⟨(0 : Fin 4).val * T + r.val, tile_lt 0 r⟩))
          (Finset.univ.fold max b fun r : Fin T => f ⟨(1 : Fin 4).val * T + r.val, tile_lt 1 r⟩))
          (Finset.univ.fold max b fun r : Fin T => f ⟨(2 : Fin 4).val * T + r.val, tile_lt 2 r⟩))
          (Finset.univ.fold max b fun r : Fin T => f ⟨(3 : Fin 4).val * T + r.val, tile_lt 3 r⟩) :=
  (fold_max_tiles 4 T b f).trans (fold_max_fin4 b _)

end MaxTiles
-- ==== Proof.MaxPlusSpec.lean ====
/-
  The max-plus product of two matrices, as one function of the two arrays.

  For `x` and `w`, both `[1024, 256]`, the result at `(n, m)` is the running maximum over the 256 columns `k` of
  `|x (n, k)| + |w (m, k)|`, started from the value the programs start from: the f32 word `0xFF800000` read at the
  extended reals. That starting value is never evaluated — both programs start every running maximum from the same
  word, and `max` absorbs a repeated starting value. On the extended reals `|a|` is `max a (-a)`.

  `maxPlusAt_chunks` is the one law that joins the two programs: the maximum over all 256 columns is the left-nested
  `max` of the starting value and the maxima over the four runs of 64 consecutive columns.
-/
import Idealize.ShloMosaic.PureOps.Ideal.Laws
import Idealize.ShloMosaic.Lib.ValueIdx
import proofs.«104023_j9251359556271_2_alg».proof.Proof.LibMaxTiles

noncomputable section

namespace Cert.MaxPlus

open Idealize.ShloMosaic Idealize.ShloMosaic.ValueIdx

/-- Where every running maximum starts: the word `0xFF800000` as an extended real. -/
def start : EReal := Ideal.ofBits .f32 0xFF800000#32

/-- The term at column `k` for row `p` of `A` and row `q` of `B`: `|A (p, k)| + |B (q, k)|`, over matrices of
    any number of rows and `K` columns. -/
def term {R K : ℕ} (A B : (⟨2, ![R, K]⟩ : Shape).Idx → EReal) (p q : Fin R) (k : Fin K) : EReal :=
  max (A (ix2 p k)) (-(A (ix2 p k))) + max (B (ix2 q k)) (-(B (ix2 q k)))

/-- The result at `(n, m)`: the maximum of the terms over all columns, from `start`. -/
def maxPlusAt {R K : ℕ} (A B : (⟨2, ![R, K]⟩ : Shape).Idx → EReal) (p q : Fin R) : EReal :=
  Finset.univ.fold max start (term A B p q)

/-- The whole `[1024, 1024]` result as a function of the two `[1024, 256]` arrays. -/
def maxPlus (x w : (⟨2, ![1024, 256]⟩ : Shape).Idx → EReal) : (⟨2, ![1024, 1024]⟩ : Shape).Idx → EReal :=
  fun i => maxPlusAt x w (i 0) (i 1)

/-- The maximum of the terms over the 64 columns from `off` on, from `start`. -/
def chunk {R : ℕ} (A B : (⟨2, ![R, 256]⟩ : Shape).Idx → EReal) (p q : Fin R) (off : ℕ) (h : off + 64 ≤ 256) : EReal :=
  Finset.univ.fold max start fun r : Fin 64 => term A B p q ⟨off + r.val, by have := r.isLt; omega⟩

/-- The maximum over 256 columns is the nested `max` of `start` and the maxima over columns 0–63, 64–127, 128–191
    and 192–255. -/
theorem maxPlusAt_chunks {R : ℕ} (A B : (⟨2, ![R, 256]⟩ : Shape).Idx → EReal) (p q : Fin R) :
    maxPlusAt A B p q
      = max (max (max (max start (chunk A B p q 0 (by decide))) (chunk A B p q 64 (by decide)))
          (chunk A B p q 128 (by decide))) (chunk A B p q 192 (by decide)) :=
  (MaxTiles.fold_max_tiles4 64 start (term A B p q)).trans rfl

end Cert.MaxPlus

end
-- ==== Proof.RefValue.lean ====
/-
  The reference computes the max-plus product.

  The reference takes `|x|` and `|w|`, lays `|x|` over a middle axis and `|w|` over a leading axis to
  `[1024, 1024, 256]`, adds them, and reduces the last axis by `max` from the word `0xFF800000`. Read at
  `(n, m)` the reduction is the running maximum over the 256 coordinates `k` of the last axis of the sum at
  `(n, m, k)`, and the sum there is `|x (n, k)| + |w (m, k)|`: the two broadcasts forget `m` and `n`.
-/
import proofs.«104023_j9251359556271_2_alg».proof.Proof.Gen.ReferenceIdeal.Read
import proofs.«104023_j9251359556271_2_alg».proof.Proof.MaxPlusSpec
import Idealize.ShloMosaic.PureOps.Ideal.Laws
import Idealize.ShloMosaic.Lib.ValueIdx

noncomputable section

namespace Cert.MaxPlus.Ref

open Cert.ReferenceIdeal Cert.ReferenceIdeal.Gen Cert.ReferenceIdeal.Read
open Idealize.ShloMosaic Idealize.ShloMosaic.ValueIdx

/-- The reduction drops the last of three axes. -/
theorem reduces_last : S1024x1024x256.Reduces [2] S1024x1024 := by decide

/-- The sum the reference reduces, at `(n, m, k)`, is `|x (n, k)| + |w (m, k)|`. -/
theorem sum_at (x0 x1 : S1024x256.Idx → EReal) (n mm : Fin 1024) (k : Fin 256) :
    val_main_v6 (F := Ideal) x0 x1 (ix3 n mm k) = term x0 x1 n mm k := by
  have e0 : idx_main_v2 (idx_main_v4 (ix3 n mm k)) = ix2 n k :=
    funext fun a => Fin.ext (by match a with | ⟨0, _⟩ => rfl | ⟨1, _⟩ => rfl)
  have e1 : idx_main_v3 (idx_main_v5 (ix3 n mm k)) = ix2 mm k :=
    funext fun a => Fin.ext (by match a with | ⟨0, _⟩ => rfl | ⟨1, _⟩ => rfl)
  rw [val_main_v6_apply, val_main_v4_apply, val_main_v2_apply, val_main_v0_apply, val_main_v5_apply,
    val_main_v3_apply, val_main_v1_apply, e0, e1]
  rfl

/-- The reference's result is the max-plus product of its two arguments. -/
theorem result_eq (x0 x1 : S1024x256.Idx → EReal) : val_main_v7 (F := Ideal) x0 x1 = maxPlus x0 x1 := by
  funext i
  obtain ⟨n, mm, rfl⟩ : ∃ (n mm : Fin 1024), i = ix2 n mm := ⟨i 0, i 1, eq_ix2 i⟩
  unfold val_main_v7
  refine (Host.reduce_eq_fold_single (α := EReal) (FloatOps.maximumf (F := Ideal) (φ := .f32))
    (val_main_v6 (F := Ideal) x0 x1) (val_main_cst (F := Ideal))
    reducesTo_S1024x1024x256_S1024x1024_d2 reduces_last h_S_ (ix2 n mm)).trans ?_
  show Finset.univ.fold max start (fun k : Fin 256 => val_main_v6 (F := Ideal) x0 x1 (reduces_last.lift (ix2 n mm) k))
    = Finset.univ.fold max start (term x0 x1 n mm)
  refine congrArg (fun g => Finset.univ.fold max start g) (funext fun k => ?_)
  have hl : reduces_last.lift (ix2 n mm) k = ix3 n mm k :=
    funext fun a => Fin.ext (by match a with | ⟨0, _⟩ => rfl | ⟨1, _⟩ => rfl | ⟨2, _⟩ => rfl)
  rw [hl]
  exact sum_at x0 x1 n mm k

end Cert.MaxPlus.Ref

end
-- ==== Proof.LibOuterLayout.lean ====
/-
  The layout steps of an outer combination `a[:, None, :] ∘ b[None, :, :]` read at coordinates.

  Two matrices `[a, c]` and `[b, c]` are combined over every pair of rows by giving the first a unit middle axis
  (`[a, 1, c]`), the second a unit leading axis (`[1, b, c]`), and laying both over `[a, b, c]`. Read at `(p, q, r)`
  the first is row `p` of its matrix at column `r` and the second row `q` of its matrix at column `r`. The leading
  unit axis (`[b, c]` viewed as `[1, b, c]`) is the library's `shapeCast_ab_1ab_apply`; here are the middle unit axis
  and the two broadcasts, each with every index written by its coordinates.
-/
import Idealize.ShloMosaic.Lib.ValueLayout

namespace OuterLayout

open Idealize.ShloMosaic Idealize.ShloMosaic.ValueIdx

variable {α : Type}

/-- An `[a, c]` array viewed as `[a, 1, c]` reads, at `(i, u, j)`, the operand at `(i, j)`: the two indices have
    the same row-major position, `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array laid over `[a, b, c]` reads, at `(p, q, r)`, the operand at `(p, 0, r)`: the middle
    coordinate is forgotten. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array laid over `[a, b, c]` reads, at `(p, q, r)`, the operand at `(0, q, r)`: the leading
    coordinate is forgotten. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end OuterLayout
-- ==== Proof.KernelBlock.lean ====
/-
  What the kernel's body leaves at one position of its output block.

  The body loads a `[128, 256]` block `P0` of `x` and a `[128, 256]` block `P1` of `w`, takes absolute values, and
  for each of the four runs of 64 consecutive columns (from 0, 64, 128, 192) lays the run of `|P0|` over a middle axis
  and the run of `|P1|` over a leading axis to `[128, 128, 64]`, adds them, and reduces the last axis by `max`; the
  four chunk maxima are folded into a running maximum by nested `max`. At `(p, q)` of the block:
  * the sum of a run at `(p, q, r)` is `|P0 (p, off + r)| + |P1 (q, off + r)|` (`chunk_sum_at`);
  * so the run's reduction is the maximum of those terms over `r` (`chunk_max_at`);
  * and the nested `max` of the four is the maximum over all 256 columns (`block_at`, by `maxPlusAt_chunks`).
-/
import proofs.«104023_j9251359556271_2_alg».proof.Proof.Gen.KernelIdeal.Value
import proofs.«104023_j9251359556271_2_alg».proof.Proof.MaxPlusSpec
import proofs.«104023_j9251359556271_2_alg».proof.Proof.LibOuterLayout
import Idealize.ShloMosaic.PureOps.Ideal.Laws
import Idealize.ShloMosaic.Lib.ValueLayout

noncomputable section

namespace Cert.MaxPlus.Ker

open Cert.KernelIdeal Cert.KernelIdeal.Gen
open Idealize.ShloMosaic Idealize.ShloMosaic.ValueIdx

/-- The sum the body reduces for the 64 columns from `off` on, read at `(p, q, r)`: row `p` of `|P0|` and row `q` of
    `|P1|`, both at column `off + r`. -/
theorem chunk_sum_at (off : ℕ) (hoff : off + 64 ≤ 256) (hs : S128x256.Slices ![0, off] S128x64)
    (P0 P1 : S128x256.Idx → EReal) (p q : Fin 128) (r : Fin 64) :
    addf (F := Ideal) (φ := .f32)
        (broadcastTo S128x128x64 (shapeCast S128x1x64 (extractStridedSlice S128x64 ![0, off] (absf (F := Ideal) (φ := .f32) P0) hs)
          shapeCasts_S128x64_S128x1x64) broadcasts_S128x1x64_S128x128x64)
        (broadcastTo S128x128x64 (shapeCast S1x128x64 (extractStridedSlice S128x64 ![0, off] (absf (F := Ideal) (φ := .f32) P1) hs)
          shapeCasts_S128x64_S1x128x64) broadcasts_S1x128x64_S128x128x64) (ix3 p q r)
      = term P0 P1 p q ⟨off + r.val, by have := r.isLt; omega⟩ := by
  show _ + _ = _
  unfold term
  refine congrArg₂ (· + ·) ?_ ?_
  · refine (OuterLayout.broadcastTo_a1c_abc_apply _ _ p q r).trans ?_
    refine (OuterLayout.shapeCast_ac_a1c_apply _ _ p 0 r).trans ?_
    refine (slice2_axis1_apply off _ hs p r ⟨off + r.val, by have := r.isLt; omega⟩ rfl).trans ?_
    rfl
  · refine (OuterLayout.broadcastTo_1bc_abc_apply _ _ p q r).trans ?_
    refine (shapeCast_ab_1ab_apply _ _ 0 q r).trans ?_
    refine (slice2_axis1_apply off _ hs q r ⟨off + r.val, by have := r.isLt; omega⟩ rfl).trans ?_
    rfl

/-- The body's reduction of that sum over its last axis, read at a block index `j` whose coordinates are `(p, q)`, is
    the maximum over the run's 64 columns of the terms, from the starting word. -/
theorem chunk_max_at (off : ℕ) (hoff : off + 64 ≤ 256) (hs : S128x256.Slices ![0, off] S128x64)
    (P0 P1 : S128x256.Idx → EReal) (p q : Fin 128) (hφ : FKind.Formats .f32)
    (hacc : (0xFF800000#32 : BitVec 32) = FKind.maximumf.neutral .f32 hφ)
    (j : S128x128.Idx) (hj0 : (j 0).val = p.val) (hj1 : (j 1).val = q.val) :
    multiReduction (F := Ideal) (φ := .f32) .maximumf [2] S128x128
        (addf (broadcastTo S128x128x64 (shapeCast S128x1x64 (extractStridedSlice S128x64 ![0, off] (absf (F := Ideal) (φ := .f32) P0) hs)
            shapeCasts_S128x64_S128x1x64) broadcasts_S128x1x64_S128x128x64)
          (broadcastTo S128x128x64 (shapeCast S1x128x64 (extractStridedSlice S128x64 ![0, off] (absf (F := Ideal) (φ := .f32) P1) hs)
            shapeCasts_S128x64_S1x128x64) broadcasts_S1x128x64_S128x128x64))
        0xFF800000#32 reduces_S128x128x64_S128x128 hφ hacc j
      = chunk P0 P1 p q off hoff := by
  refine (Ideal.multiReduction_maximumf_single (φ := .f32) (s := S128x128x64) (t := S128x128) (a := 2) _ (0xFF800000#32 : BitVec 32)
    reduces_S128x128x64_S128x128 hφ hacc j).trans ?_
  unfold chunk
  refine congrArg (fun g : Fin 64 → EReal => Finset.univ.fold max start g) (funext fun r => ?_)
  have hl : reduces_S128x128x64_S128x128.lift j r = ix3 p q r :=
    funext fun a => Fin.ext (by match a with | ⟨0, _⟩ => exact hj0 | ⟨1, _⟩ => exact hj1 | ⟨2, _⟩ => rfl)
  exact (congrArg _ hl).trans (chunk_sum_at off hoff hs P0 P1 p q r)

/-- THE BLOCK AT `(p, q)`: the nested `max` of the starting word and the four chunk maxima is the maximum over all 256
    columns of `|P0 (p, k)| + |P1 (q, k)|`. -/
theorem block_at (P0 P1 : S128x256.Idx → EReal) (p q : Fin 128) :
    Value.E2 (F := Ideal) P0 P1 (ix2 p q) = maxPlusAt P0 P1 p q := by
  rw [maxPlusAt_chunks]
  exact congrArg₂ max (congrArg₂ max (congrArg₂ max (congrArg (max start)
    (chunk_max_at 0 (by decide) _ P0 P1 p q _ _ _ rfl rfl))
    (chunk_max_at 64 (by decide) _ P0 P1 p q _ _ _ rfl rfl))
    (chunk_max_at 128 (by decide) _ P0 P1 p q _ _ _ rfl rfl))
    (chunk_max_at 192 (by decide) _ P0 P1 p q _ _ _ rfl rfl)

end Cert.MaxPlus.Ker

end
-- ==== Proof.KernelValue.lean ====
/-
  From the kernel's blocks to its whole result array.

  The kernel runs on an 8 × 8 grid. At point (i, j) it loads rows 128 i … 128 i + 127 of `x` and rows
  128 j … 128 j + 127 of `w` (all 256 columns of each) and writes the `[128, 128]` block (i, j) of the result. What it
  writes at (p, q) of the block is the maximum over all columns of `|P0 (p, k)| + |P1 (q, k)|` of the two loaded blocks
  (`block_at`); row `p` of the block of `x` is row `128 i + p` of `x` and row `q` of the block of `w` is row
  `128 j + q` of `w`, which are the coordinates of the array index under (p, q) — so the point writes ITS BLOCK of the
  one whole-array function `maxPlus x w` (`flushed_eq`). The 64 blocks tile the `[1024, 1024]` array: index (n, m) is in
  the block of the point with block row `n / 128` and block column `m / 128` (`cover`). Hence the array after the run is
  `maxPlus x w` (`final`, `run`).
-/
import proofs.«104023_j9251359556271_2_alg».proof.Proof.Gen.KernelIdeal.Value
import proofs.«104023_j9251359556271_2_alg».proof.Proof.MaxPlusSpec
import proofs.«104023_j9251359556271_2_alg».proof.Proof.KernelBlock
import Idealize.ShloMosaic.Lib.Pipeline.Value
import Idealize.ShloMosaic.Lib.ValueIdx

noncomputable section

namespace Cert.MaxPlus.Ker

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- The three index maps over the 64 grid points: the block of `x` follows the output's block row, the block of `w`
    the output's block column, both at column block 0, and the output's block indices stay below 8. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 output blocks is some grid point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- WHAT POINT `t` WRITES BACK is block `t` of the max-plus product of the two argument arrays. -/
theorem flushed_eq (c : Dev nD) (t : Fin cfg0.N) :
    (dats m 0 c).flushed 2 t
      = ((cfg0.win 2).blk t).view.read (Elt Ideal) (maxPlus (V m c main_arg0) (V m c main_arg1)) := by
  rw [Value.flushed2]
  unfold out0_2
  simp only [View.ld_unit_zero (S := S128x256) origin]
  obtain ⟨e0, e1, e2, e3, e4, e5⟩ := index_facts t
  funext y
  show View.canon (Val := Elt Ideal) (s := S128x128) (e := .f32) [⟨r0_1, k0_pay1 (iblk m c 0 t) (iblk m c 1 t)⟩] y
    = maxPlus (V m c main_arg0) (V m c main_arg1) (((cfg0.win 2).blk t).view.emb y)
  -- the block is one index-by-index function of the two loaded blocks,
  refine (Value.canon2_eq (F := Ideal) (iblk m c 0 t) (iblk m c 1 t) y).trans ?_
  obtain ⟨p, q, rfl⟩ : ∃ (p q : Fin 128), y = ix2 p q := ⟨y 0, y 1, eq_ix2 y⟩
  -- at (p, q) the maximum over all columns of |P0 (p, k)| + |P1 (q, k)|,
  refine (block_at (iblk m c 0 t) (iblk m c 1 t) p q).trans ?_
  show Finset.univ.fold max start (term (iblk m c 0 t) (iblk m c 1 t) p q)
    = Finset.univ.fold max start (term (V m c main_arg0) (V m c main_arg1)
        (((cfg0.win 2).blk t).view.emb (ix2 p q) 0) (((cfg0.win 2).blk t).view.emb (ix2 p q) 1))
  refine congrArg (fun g : Fin 256 → EReal => Finset.univ.fold max start g) (funext fun k => ?_)
  unfold term
  -- and row p of the block of x is row (block row) * 128 + p of x, row q of the block of w row (block column) * 128 + q of w
  have h0 : iblk m c 0 t (ix2 p k)
      = V m c main_arg0 (ix2 (((cfg0.win 2).blk t).view.emb (ix2 p q) 0) k) := by
    show V m c main_arg0 (((cfg0.win 0).blk t).view.emb (ix2 p k)) = _
    refine congrArg (V m c main_arg0) (funext fun a => Fin.ext ?_)
    match a with
    | ⟨0, _⟩ =>
      show win0_0.index t (0 : Fin 2) * 128 + 1 * p.val = win0_2.index t (0 : Fin 2) * 128 + 1 * p.val
      omega
    | ⟨1, _⟩ =>
      show win0_0.index t (1 : Fin 2) * 256 + 1 * k.val = k.val
      omega
  have h1 : iblk m c 1 t (ix2 q k)
      = V m c main_arg1 (ix2 (((cfg0.win 2).blk t).view.emb (ix2 p q) 1) k) := by
    show V m c main_arg1 (((cfg0.win 1).blk t).view.emb (ix2 q k)) = _
    refine congrArg (V m c main_arg1) (funext fun a => Fin.ext ?_)
    match a with
    | ⟨0, _⟩ =>
      show win0_1.index t (0 : Fin 2) * 128 + 1 * q.val = win0_2.index t (1 : Fin 2) * 128 + 1 * q.val
      omega
    | ⟨1, _⟩ =>
      show win0_1.index t (1 : Fin 2) * 256 + 1 * k.val = k.val
      omega
  rw [h0, h1]

/-- An index of the array is in point `t`'s block iff each coordinate is in the block's range on its axis. -/
theorem mem_blk (t : Fin cfg0.N) (i : S1024x1024.Idx) :
    i ∈ ((cfg0.win 2).blk t).view.set
      ↔ ∀ a : Fin 2, win0_2.index t a * S128x128.size a ≤ (i a).val
          ∧ (i a).val < win0_2.index t a * S128x128.size a + S128x128.size a := by
  show i ∈ ((View.whole main_v0).slice (win0_2.rect t)).set ↔ _
  rw [View.set_slice_whole, Rect.mem_set_unit]
  exact Iff.rfl

/-- THE BLOCKS TILE THE ARRAY: index `(n, m)` is in the block of the point with block row `n / 128` and block column
    `m / 128`. -/
theorem cover (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht⟩ := index_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 128 ≤ (i 1).val ∧ (i 1).val < win0_2.index t (1 : Fin 2) * 128 + 128
    omega

/-- THE ARRAY after the run is the max-plus product of the two argument arrays as launched. -/
theorem final (c : Dev nD) :
    (dats m 0 c).arrAt 2 cfg0.N
      = maxPlus (m ((c : Thread nD τ).loc main_arg0)) (m ((c : Thread nD τ).loc main_arg1)) :=
  (dats m 0 c).arrAt_eq_of_cover 2 (maxPlus (V m c main_arg0) (V m c main_arg1)) (fun t _ => flushed_eq m c t) cover

/-- The kernel's run: every weakly fair execution terminates with the result array at the max-plus product of the
    arguments, and the arguments unchanged. -/
theorem run : θ_run defs (onTc (τ := τ) (main (F := Ideal))) ⟨m, fun _ => 0, ρ⟩ fun r => ∀ c : Dev nD,
      r.2.mem ((c : Thread nD τ).loc main_v0)
        = maxPlus (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.MaxPlus.Ker

end
-- ==== Proof.lean ====
/-
  The max-plus product `out (n, m) = max over k of (|x (n, k)| + |w (m, k)|)`, `x` and `w` both `[1024, 256]`: a
  tiled kernel against a whole-array reference, equal over the extended reals.

  The reference lays `|x|` and `|w|` over `[1024, 1024, 256]`, adds, and reduces the last axis by `max` from the f32
  word `0xFF800000`. The kernel works block by block on an 8 × 8 grid; within a block it never forms the whole
  `[128, 128, 256]` sum but splits the 256 columns into four runs of 64, reduces each run by `max` from the same word,
  and folds the four results into a running maximum that also starts from that word. Both are the function
  `Cert.MaxPlus.maxPlus` of the two argument arrays:
  * the reference, because a reduction over one axis is the running maximum over that axis's coordinates, and the two
    broadcasts forget one row coordinate each (Proof/RefValue.lean);
  * the kernel, because the same reading of each run's reduction gives the four chunk maxima, their nested `max` is
    the maximum over all 256 columns — `max` is associative, commutative and idempotent, so the repeated starting word
    is absorbed and is never evaluated (Proof/LibMaxTiles.lean, Proof/MaxPlusSpec.lean, Proof/KernelBlock.lean) —, and
    the 64 blocks tile the result (Proof/KernelValue.lean).
  No law used needs the inputs finite: the precondition is never opened. The idealized kernel is the kernel's own text
  read at the extended reals (no operation was rewritten), so nothing is owed for that conjunct. The three frames are
  the generated frame proofs, the reference's being its generated run with the result dropped.
-/
import proofs.«104023_j9251359556271_2_alg».proof.Defs
import proofs.«104023_j9251359556271_2_alg».proof.Proof.Gen.Kernel
import proofs.«104023_j9251359556271_2_alg».proof.Proof.Gen.Kernel.Skeleton
import proofs.«104023_j9251359556271_2_alg».proof.Proof.Gen.Kernel.Launch
import proofs.«104023_j9251359556271_2_alg».proof.Proof.Gen.Kernel.Points
import proofs.«104023_j9251359556271_2_alg».proof.Proof.Gen.Kernel.Frame
import proofs.«104023_j9251359556271_2_alg».proof.Proof.Gen.KernelIdeal
import proofs.«104023_j9251359556271_2_alg».proof.Proof.Gen.KernelIdeal.Skeleton
import proofs.«104023_j9251359556271_2_alg».proof.Proof.Gen.KernelIdeal.Launch
import proofs.«104023_j9251359556271_2_alg».proof.Proof.Gen.KernelIdeal.Points
import proofs.«104023_j9251359556271_2_alg».proof.Proof.Gen.KernelIdeal.Frame
import proofs.«104023_j9251359556271_2_alg».proof.Proof.Gen.ReferenceIdeal
import proofs.«104023_j9251359556271_2_alg».proof.Proof.Gen.Pre_finite_inputs
import proofs.«104023_j9251359556271_2_alg».proof.Proof.Gen.KernelIdeal.Value
import proofs.«104023_j9251359556271_2_alg».proof.Proof.Gen.ReferenceIdeal.Run
import proofs.«104023_j9251359556271_2_alg».proof.Proof.Gen.ReferenceIdeal.Read
import proofs.«104023_j9251359556271_2_alg».proof.Proof.RefValue
import proofs.«104023_j9251359556271_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on `x` and `w`, both programs end with the result array at `maxPlus x w`. -/
theorem algebraic : Cert.algebraic_KernelIdeal_ReferenceIdeal := by
  intro m ρ m' ρ' _ hagree
  refine ⟨_, Cert.MaxPlus.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.MaxPlus.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
